-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S8x200x512 .f32) (main_arg1 : FVec F S8x50x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x200x512 : Shape := ⟨3, ![8, 200, 512]⟩
abbrev S8x50x512 : Shape := ⟨3, ![8, 50, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S8x200x50x500 : Shape := ⟨4, ![8, 200, 50, 500]⟩
abbrev S1x40x512 : Shape := ⟨3, ![1, 40, 512]⟩
abbrev S1x50x512 : Shape := ⟨3, ![1, 50, 512]⟩
abbrev S1x40x50x500 : Shape := ⟨4, ![1, 40, 50, 500]⟩
abbrev S40x512 : Shape := ⟨2, ![40, 512]⟩
abbrev S50x512 : Shape := ⟨2, ![50, 512]⟩
abbrev S1x512 : Shape := ⟨2, ![1, 512]⟩
abbrev S40x1x512 : Shape := ⟨3, ![40, 1, 512]⟩
abbrev S40x50x512 : Shape := ⟨3, ![40, 50, 512]⟩
abbrev S2000x512 : Shape := ⟨2, ![2000, 512]⟩
abbrev S2000x500 : Shape := ⟨2, ![2000, 500]⟩
abbrev S1x500 : Shape := ⟨2, ![1, 500]⟩
abbrev S40x50x500 : Shape := ⟨3, ![40, 50, 500]⟩

abbrev nBuf : Space → Nat
  | .hbm => 9
  | .vmem => 12
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x200x50x500, .f32⟩
  | .local _ .vmem, ⟨0, _⟩ => ⟨S1x40x512, .f32⟩
  | .local _ .vmem, ⟨1, _⟩ => ⟨S1x40x512, .f32⟩
  | .local _ .vmem, ⟨2, _⟩ => ⟨S1x50x512, .f32⟩
  | .local _ .vmem, ⟨3, _⟩ => ⟨S1x50x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S500x512, .f32⟩
  | .local _ .vmem, ⟨9, _⟩ => ⟨S500, .f32⟩
  | .local _ .vmem, ⟨10, _⟩ => ⟨S1x40x50x500, .f32⟩
  | .local _ .vmem, ⟨11, _⟩ => ⟨S1x40x50x500, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S500x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x40x50x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  bitsLt_bf16_f32 : FTy.bits .bf16 < FTy.bits .f32
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  inb_S512x512_S512x512_0_0 : ∀ a, (![0, 0] : Fin 2 → Nat) a + S512x512.size a ≤ S512x512.size a
  h_S512x512 : 0 < S512x512.numel
  inb_S500x512_S500x512_0_0 : ∀ a, (![0, 0] : Fin 2 → Nat) a + S500x512.size a ≤ S500x512.size a
  h_S500x512 : 0 < S500x512.numel
  inb_S512_S512_0 : ∀ a, (![0] : Fin 1 → Nat) a + S512.size a ≤ S512.size a
  h_S512 : 0 < S512.numel
  shapeCasts_S512_S1x512 : S512.ShapeCasts S1x512
  broadcasts_S1x512_S40x512 : S1x512.Broadcasts S40x512
  broadcasts_S1x512_S50x512 : S1x512.Broadcasts S50x512
  shapeCasts_S40x512_S40x1x512 : S40x512.ShapeCasts S40x1x512
  shapeCasts_S50x512_S1x50x512 : S50x512.ShapeCasts S1x50x512
  broadcasts_S40x1x512_S40x50x512 : S40x1x512.Broadcasts S40x50x512
  broadcasts_S1x50x512_S40x50x512 : S1x50x512.Broadcasts S40x50x512
  shapeCasts_S40x50x512_S2000x512 : S40x50x512.ShapeCasts S2000x512
  inb_S500_S500_0 : ∀ a, (![0] : Fin 1 → Nat) a + S500.size a ≤ S500.size a
  h_S500 : 0 < S500.numel
  shapeCasts_S500_S1x500 : S500.ShapeCasts S1x500
  broadcasts_S1x500_S2000x500 : S1x500.Broadcasts S2000x500
  shapeCasts_S2000x500_S40x50x500 : S2000x500.ShapeCasts S40x50x500
  inb_S1x40x50x500_S1x40x50x500_0_0_0_0 : ∀ a, (![0, 0, 0, 0] : Fin 4 → Nat) a + S1x40x50x500.size a ≤ S1x40x50x500.size a
  h_S1x40x50x500 : 0 < S1x40x50x500.numel
  shapeCasts_S1x40x50x500_S40x50x500 : S1x40x50x500.ShapeCasts S40x50x500
  shapeCasts_S40x50x500_S1x40x50x500 : S40x50x500.ShapeCasts S1x40x50x500
  dot_S40x512_S512x512_S40x512_1_1_0_0_n_n_wf : DotDims.WF S40x512 S512x512 S40x512 [1] [1] [0] [0] [] []
  dot_S50x512_S512x512_S50x512_1_1_0_0_n_n_wf : DotDims.WF S50x512 S512x512 S50x512 [1] [1] [0] [0] [] []
  dot_S2000x512_S500x512_S2000x500_1_1_0_0_n_n_wf : DotDims.WF S2000x512 S500x512 S2000x500 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x512.size a ≤ S8x50x512.size a
  hwx0_1 : ∀ i : grid0.Coords, EltTy.bits .f32 = 32 ∨ (Rect.block (s := S8x50x512) S1x50x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x512.size a ≤ S500x512.size a
  hwx0_6 : ∀ i : grid0.Coords, EltTy.bits .f32 = 32 ∨ (Rect.block (s := S500x512) S500x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x40x50x500.size a ≤ S8x200x50x500.size a
  hwx0_8 : ∀ i : grid0.Coords, EltTy.bits .f32 = 32 ∨ (Rect.block (s := S8x200x50x500) S1x40x50x500.size (cc0_transform_8 i) (hinb0_8 i)).WholeWords (EltTy.packing .f32)

variable [Facts₀]

def dot_S40x512_S512x512_S40x512_1_1_0_0_n_n : DotDims S40x512 S512x512 S40x512 where
  lhsContracting := [1]
  rhsContracting := [1]
  lhsNonContracting := [0]
  rhsNonContracting := [0]
  lhsBatch := []
  rhsBatch := []
  wf := dot_S40x512_S512x512_S40x512_1_1_0_0_n_n_wf
def dot_S50x512_S512x512_S50x512_1_1_0_0_n_n : DotDims S50x512 S512x512 S50x512 where
  lhsContracting := [1]
  rhsContracting := [1]
  lhsNonContracting := [0]
  rhsNonContracting := [0]
  lhsBatch := []
  rhsBatch := []
  wf := dot_S50x512_S512x512_S50x512_1_1_0_0_n_n_wf
def dot_S2000x512_S500x512_S2000x500_1_1_0_0_n_n : DotDims S2000x512 S500x512 S2000x500 where
  lhsContracting := [1]
  rhsContracting := [1]
  lhsNonContracting := [0]
  rhsNonContracting := [0]
  lhsBatch := []
  rhsBatch := []
  wf := dot_S2000x512_S500x512_S2000x500_1_1_0_0_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x50x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S500x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x40x50x500.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S8x200x1x512 : Shape := ⟨4, ![8, 200, 1, 512]⟩
abbrev S8x1x50x512 : Shape := ⟨4, ![8, 1, 50, 512]⟩
abbrev S8x200x50x512 : Shape := ⟨4, ![8, 200, 50, 512]⟩
abbrev S8x200x50x500 : Shape := ⟨4, ![8, 200, 50, 500]⟩
abbrev S1x1x1x500 : Shape := ⟨4, ![1, 1, 1, 500]⟩

abbrev nBuf : Space → Nat
  | .hbm => 26
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x200x512, .f32⟩
  | .hbm, ⟨9, _⟩ => ⟨S1x1x512, .f32⟩
  | .hbm, ⟨10, _⟩ => ⟨S8x200x512, .f32⟩
  | .hbm, ⟨11, _⟩ => ⟨S8x200x512, .f32⟩
  | .hbm, ⟨12, _⟩ => ⟨S8x50x512, .f32⟩
  | .hbm, ⟨13, _⟩ => ⟨S1x1x512, .f32⟩
  | .hbm, ⟨14, _⟩ => ⟨S8x50x512, .f32⟩
  | .hbm, ⟨15, _⟩ => ⟨S8x50x512, .f32⟩
  | .hbm, ⟨16, _⟩ => ⟨S8x200x1x512, .f32⟩
  | .hbm, ⟨17, _⟩ => ⟨S8x1x50x512, .f32⟩
  | .hbm, ⟨18, _⟩ => ⟨S8x200x50x512, .f32⟩
  | .hbm, ⟨19, _⟩ => ⟨S8x200x50x512, .f32⟩
  | .hbm, ⟨20, _⟩ => ⟨S8x200x50x512, .f32⟩
  | .hbm, ⟨21, _⟩ => ⟨S8x200x50x512, .f32⟩
  | .hbm, ⟨22, _⟩ => ⟨S8x200x50x500, .f32⟩
  | .hbm, ⟨23, _⟩ => ⟨S1x1x1x500, .f32⟩
  | .hbm, ⟨24, _⟩ => ⟨S8x200x50x500, .f32⟩
  | .hbm, ⟨25, _⟩ => ⟨S8x200x50x500, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x200x512_0_1_2 : S1x1x512.BroadcastsInDim S8x200x512 (![0, 1, 2] : Fin 3 → Fin S8x200x512.rank)
  bcast_S1x1x512_S8x50x512_0_1_2 : S1x1x512.BroadcastsInDim S8x50x512 (![0, 1, 2] : Fin 3 → Fin S8x50x512.rank)
  bcast_S8x200x512_S8x200x1x512_0_1_3 : S8x200x512.BroadcastsInDim S8x200x1x512 (![0, 1, 3] : Fin 3 → Fin S8x200x1x512.rank)
  bcast_S8x50x512_S8x1x50x512_0_2_3 : S8x50x512.BroadcastsInDim S8x1x50x512 (![0, 2, 3] : Fin 3 → Fin S8x1x50x512.rank)
  bcast_S8x200x1x512_S8x200x50x512_0_1_2_3 : S8x200x1x512.BroadcastsInDim S8x200x50x512 (![0, 1, 2, 3] : Fin 4 → Fin S8x200x50x512.rank)
  bcast_S8x1x50x512_S8x200x50x512_0_1_2_3 : S8x1x50x512.BroadcastsInDim S8x200x50x512 (![0, 1, 2, 3] : Fin 4 → Fin S8x200x50x512.rank)
  bcast_S500_S1x1x1x500_3 : S500.BroadcastsInDim S1x1x1x500 (![3] : Fin 1 → Fin S1x1x1x500.rank)
  bcast_S1x1x1x500_S8x200x50x500_0_1_2_3 : S1x1x1x500.BroadcastsInDim S8x200x50x500 (![0, 1, 2, 3] : Fin 4 → Fin S8x200x50x500.rank)
  dot_S8x200x512_S512x512_S8x200x512_2_1_01_0_n_n_wf : DotDims.WF S8x200x512 S512x512 S8x200x512 [2] [1] [0, 1] [0] [] []
  dot_S8x50x512_S512x512_S8x50x512_2_1_01_0_n_n_wf : DotDims.WF S8x50x512 S512x512 S8x50x512 [2] [1] [0, 1] [0] [] []
  dot_S8x200x50x512_S500x512_S8x200x50x500_3_1_012_0_n_n_wf : DotDims.WF S8x200x50x512 S500x512 S8x200x50x500 [3] [1] [0, 1, 2] [0] [] []

variable [Facts₀]

def dot_S8x200x512_S512x512_S8x200x512_2_1_01_0_n_n : DotDims S8x200x512 S512x512 S8x200x512 where
  lhsContracting := [2]
  rhsContracting := [1]
  lhsNonContracting := [0, 1]
  rhsNonContracting := [0]
  lhsBatch := []
  rhsBatch := []
  wf := dot_S8x200x512_S512x512_S8x200x512_2_1_01_0_n_n_wf
def dot_S8x50x512_S512x512_S8x50x512_2_1_01_0_n_n : DotDims S8x50x512 S512x512 S8x50x512 where
  lhsContracting := [2]
  rhsContracting := [1]
  lhsNonContracting := [0, 1]
  rhsNonContracting := [0]
  lhsBatch := []
  rhsBatch := []
  wf := dot_S8x50x512_S512x512_S8x50x512_2_1_01_0_n_n_wf
def dot_S8x200x50x512_S500x512_S8x200x50x500_3_1_012_0_n_n : DotDims S8x200x50x512 S500x512 S8x200x50x500 where
  lhsContracting := [3]
  rhsContracting := [1]
  lhsNonContracting := [0, 1, 2]
  rhsNonContracting := [0]
  lhsBatch := []
  rhsBatch := []
  wf := dot_S8x200x50x512_S500x512_S8x200x50x500_3_1_012_0_n_n_wf

class Facts : Prop extends Facts₀ where

variable [Facts]
-- ==== Proof.JoinerSpec.lean ====
/-
  The joint network's logits as ONE function of the eight argument arrays, over the extended reals.

  For a batch entry n, an encoder frame t, a decoder step u and a vocabulary entry v,

      out[n,t,u,v] = ( ∑_j tanh( (∑_c enc[n,t,c]·Wenc[j,c] + benc[j]) + (∑_c dec[n,u,c]·Wdec[j,c] + bdec[j]) ) · Wout[v,j] ) + bout[v]

  with j and c ranging over the 512 joint and feature coordinates. The function is cut into the three
  stages both programs compute: the affine projection of one feature row (`proj`), the hidden row
  of one (frame, step) pair (`hidden`: tanh of the sum of the two projections), and the output
  projection of a hidden row (`logit`). Nothing here depends on a printed program: the shapes are
  literal and the indices are built from their coordinates.
-/
import Idealize.ShloMosaic.PureOps.Ideal
import Idealize.ShloMosaic.Lib.ValueIdx

noncomputable section

open scoped BigOperators

namespace Cert.Joiner

open Idealize.ShloMosaic Idealize.ShloMosaic.ValueIdx

/-- Coordinate j of the affine image of a feature row x: the inner product of x with row j of
    the weight matrix W, plus entry j of the bias b. -/
def proj (x : Fin 512 → EReal) (W : (⟨2, ![512, 512]⟩ : Shape).Idx → EReal)
    (b : (⟨1, ![512]⟩ : Shape).Idx → EReal) (j : Fin 512) : EReal :=
  (∑ c : Fin 512, x c * W (ix2 j c)) + b (ix1 j)

/-- Coordinate j of the hidden row of an encoder feature row e and a decoder feature row d:
    tanh of the sum of their two projections. -/
def hidden (e d : Fin 512 → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (j : Fin 512) : EReal :=
  Ideal.tanh (proj e Wenc benc j + proj d Wdec bdec j)

/-- Vocabulary entry v of the output projection of a hidden row h: the inner product of h with
    row v of the output weights, plus entry v of the output bias. -/
def logit (h : Fin 512 → EReal) (Wout : (⟨2, ![500, 512]⟩ : Shape).Idx → EReal)
    (bout : (⟨1, ![500]⟩ : Shape).Idx → EReal) (v : Fin 500) : EReal :=
  (∑ j : Fin 512, h j * Wout (ix2 v j)) + bout (ix1 v)

/-- The logit at (n, t, u, v), from coordinates of literal extents. -/
def jointAt (enc : (⟨3, ![8, 200, 512]⟩ : Shape).Idx → EReal) (dec : (⟨3, ![8, 50, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal)
    (n : Fin 8) (t : Fin 200) (u : Fin 50) (v : Fin 500) : EReal :=
  logit (hidden (fun c => enc (ix3 n t c)) (fun c => dec (ix3 n u c)) Wenc benc Wdec bdec) Wout bout v

/-- The whole result array: the logit at each index's four coordinates. -/
def joint (enc : (⟨3, ![8, 200, 512]⟩ : Shape).Idx → EReal) (dec : (⟨3, ![8, 50, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal) :
    (⟨4, ![8, 200, 50, 500]⟩ : Shape).Idx → EReal :=
  fun i => jointAt enc dec Wenc benc Wdec bdec Wout bout (i 0) (i 1) (i 2) (i 3)

end Cert.Joiner

end
-- ==== Proof.RefJoint.lean ====
/-
  The reference's result, read one operation at a time, is the joint network's logits `Cert.Joiner.joint`.

  At an index (n, t, u, v) the reference adds to the broadcast output bias the contraction over j of the
  tanh'd tensor at (n, t, u, j) with row v of the output weights; the tensor under the tanh is the sum of two
  broadcasts, of the encoder projection at (n, t, j) along the decoder axis and of the decoder projection
  at (n, u, j) along the encoder axis; each projection is a contraction over the feature axis c plus its
  broadcast bias. Following an index through the broadcasts gives, stage by stage, the three stages of
  the specification; the host's tanh and the specification's are the same function on the extended reals.
-/
import proofs.«170664_j14035953123456_1_alg».proof.Proof.Gen.ReferenceIdeal.Read
import proofs.«170664_j14035953123456_1_alg».proof.Proof.JoinerSpec

noncomputable section

open scoped BigOperators

namespace Cert.Joiner.Ref

open Cert.ReferenceIdeal Cert.ReferenceIdeal.Gen Cert.ReferenceIdeal.Read
open Idealize.ShloMosaic Idealize.ShloMosaic.ValueIdx Cert.Joiner

variable (x0 : (⟨S8x200x512, .f32⟩ : BufTy).Contents (Elt Ideal)) (x1 : (⟨S8x50x512, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S500x512, .f32⟩ : BufTy).Contents (Elt Ideal)) (x7 : (⟨S500, .f32⟩ : BufTy).Contents (Elt Ideal))

/-! ## Where an index of the result reads each argument -/

/-- The encoder projection under (n, t, u, j) contracts row (n, t) of the encoder features … -/
theorem enc_row (i : S8x200x50x500.Idx) (k c : Fin 512) :
    lidx_main_v0 (idx_main_v8 (idx_main_v10 (lidx_main_v14 i k))) c = ix3 (i 0) (i 1) c :=
  funext fun a => Fin.ext (by match a with | ⟨0, _⟩ => rfl | ⟨1, _⟩ => rfl | ⟨2, _⟩ => rfl)

/-- … with row j of the encoder weights … -/
theorem enc_weight (i : S8x200x50x500.Idx) (k c : Fin 512) :
    ridx_main_v0 (idx_main_v8 (idx_main_v10 (lidx_main_v14 i k))) c = ix2 k c :=
  funext fun a => Fin.ext (by match a with | ⟨0, _⟩ => rfl | ⟨1, _⟩ => rfl)

/-- … and adds entry j of the encoder bias. -/
theorem enc_bias (i : S8x200x50x500.Idx) (k : Fin 512) :
    idx_main_v1 (idx_main_v2 (idx_main_v8 (idx_main_v10 (lidx_main_v14 i k)))) = ix1 k :=
  funext fun a => Fin.ext (by match a with | ⟨0, _⟩ => rfl)

/-- The decoder projection under (n, t, u, j) contracts row (n, u) of the decoder features … -/
theorem dec_row (i : S8x200x50x500.Idx) (k c : Fin 512) :
    lidx_main_v4 (idx_main_v9 (idx_main_v11 (lidx_main_v14 i k))) c = ix3 (i 0) (i 2) c :=
  funext fun a => Fin.ext (by match a with | ⟨0, _⟩ => rfl | ⟨1, _⟩ => rfl | ⟨2, _⟩ => rfl)

/-- … with row j of the decoder weights … -/
theorem dec_weight (i : S8x200x50x500.Idx) (k c : Fin 512) :
    ridx_main_v4 (idx_main_v9 (idx_main_v11 (lidx_main_v14 i k))) c = ix2 k c :=
  funext fun a => Fin.ext (by match a with | ⟨0, _⟩ => rfl | ⟨1, _⟩ => rfl)

/-- … and adds entry j of the decoder bias. -/
theorem dec_bias (i : S8x200x50x500.Idx) (k : Fin 512) :
    idx_main_v5 (idx_main_v6 (idx_main_v9 (idx_main_v11 (lidx_main_v14 i k)))) = ix1 k :=
  funext fun a => Fin.ext (by match a with | ⟨0, _⟩ => rfl)

/-- The output contraction at (n, t, u, v) meets row v of the output weights … -/
theorem out_weight (i : S8x200x50x500.Idx) (k : Fin 512) : ridx_main_v14 i k = ix2 (i 3) k :=
  funext fun a => Fin.ext (by match a with | ⟨0, _⟩ => rfl | ⟨1, _⟩ => rfl)

/-- … and adds entry v of the output bias. -/
theorem out_bias (i : S8x200x50x500.Idx) : idx_main_v15 (idx_main_v16 i) = ix1 (i 3) :=
  funext fun a => Fin.ext (by match a with | ⟨0, _⟩ => rfl)

/-! ## The three stages -/

/-- The broadcast encoder projection at (n, t, u, j) is the projection of encoder row (n, t) at j. -/
theorem enc_stage (i : S8x200x50x500.Idx) (k : Fin 512) :
    val_main_v10 (F := Ideal) x0 x2 x3 (lidx_main_v14 i k) = proj (fun c => x0 (ix3 (i 0) (i 1) c)) x2 x3 k := by
  rw [val_main_v10_apply, val_main_v8_apply, val_main_v3_apply, val_main_v0_apply, val_main_v2_apply, val_main_v1_apply,
    enc_bias i k]
  unfold proj
  refine congrArg (· + x3 (ix1 k)) (Finset.sum_congr rfl fun c _ => ?_)
  rw [enc_row i k c, enc_weight i k c]
  rfl

/-- The broadcast decoder projection at (n, t, u, j) is the projection of decoder row (n, u) at j. -/
theorem dec_stage (i : S8x200x50x500.Idx) (k : Fin 512) :
    val_main_v11 (F := Ideal) x1 x4 x5 (lidx_main_v14 i k) = proj (fun c => x1 (ix3 (i 0) (i 2) c)) x4 x5 k := by
  rw [val_main_v11_apply, val_main_v9_apply, val_main_v7_apply, val_main_v4_apply, val_main_v6_apply, val_main_v5_apply,
    dec_bias i k]
  unfold proj
  refine congrArg (· + x5 (ix1 k)) (Finset.sum_congr rfl fun c _ => ?_)
  rw [dec_row i k c, dec_weight i k c]
  rfl

/-- The tanh'd tensor at (n, t, u, j) is the hidden row of (encoder row (n, t), decoder row (n, u)) at j. -/
theorem hidden_stage (i : S8x200x50x500.Idx) (k : Fin 512) :
    val_main_v13 (F := Ideal) x0 x1 x2 x3 x4 x5 (lidx_main_v14 i k)
      = hidden (fun c => x0 (ix3 (i 0) (i 1) c)) (fun c => x1 (ix3 (i 0) (i 2) c)) x2 x3 x4 x5 k := by
  rw [val_main_v13_apply, val_main_v12_apply, enc_stage x0 x2 x3 i k, dec_stage x1 x4 x5 i k]
  rfl

/-! ## The reference is the specification -/

/-- The reference's last stage is the joint network's logits of its eight arguments. -/
theorem ref_eq : val_main_v17 (F := Ideal) x0 x1 x2 x3 x4 x5 x6 x7 = joint x0 x1 x2 x3 x4 x5 x6 x7 := by
  funext i
  rw [val_main_v17_apply, val_main_v14_apply, val_main_v16_apply, val_main_v15_apply, out_bias i]
  show _ = logit (hidden (fun c => x0 (ix3 (i 0) (i 1) c)) (fun c => x1 (ix3 (i 0) (i 2) c)) x2 x3 x4 x5) x6 x7 (i 3)
  unfold logit
  refine congrArg (· + x7 (ix1 (i 3))) (Finset.sum_congr rfl fun k _ => ?_)
  rw [hidden_stage x0 x1 x2 x3 x4 x5 i k, out_weight i k]
  rfl

end Cert.Joiner.Ref

end
-- ==== Proof.BodyLayout.lean ====
/-
  The kernel body's re-layings and matrix products, each read at one index, over arbitrary vectors of the
  body's literal shapes.

  A block arrives with a leading axis of extent 1; the body drops it, multiplies rows by the transposed
  weights on the matrix unit into a zero accumulator (so the product is the bare sum over the feature axis),
  adds a bias row broadcast down the rows, lays the two projections out along a third axis and broadcasts
  each along the other's, and flattens the (frame, step) pair to one row index 50·t + u and back. A shape
  cast keeps the row-major position, so each of these reads ONE element of its operand, at the index with
  the same position; the lemmas below name that index by its coordinates.
-/
import proofs.«170664_j14035953123456_1_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.Joiner.Body

open Cert.KernelIdeal Cert.KernelIdeal.Gen Idealize.ShloMosaic Idealize.ShloMosaic.ValueIdx

/-! ## Pointwise operations the library does not read at an index -/

/-- The vector tanh at an index is the extended-real tanh of the element. -/
theorem tanh_apply {s : Shape} {φ : FTy} (x : FVec Ideal s φ) (i : s.Idx) : tanh x i = Ideal.tanh (x i) := rfl

/-! ## Shape casts: same row-major position -/

section Casts
variable {α : Type}

/-- A [1,40,512] block viewed [40,512]: (t, c) reads (0, t, c). -/
theorem rows40_apply (X : S1x40x512.Idx → α) (t : Fin 40) (c : Fin 512) :
    shapeCast S40x512 X shapeCasts_S1x40x512_S40x512 (ix2 t c) = X (ix3 0 t c) :=
  shapeCast_apply X _ (ix2 t c) (ix3 0 t c) (by
    rw [Shape.rowMajor_val_three, Shape.rowMajor_val_two]
    show (0 * 40 + t.val) * 512 + c.val = t.val * 512 + c.val; omega)

/-- A [1,50,512] block viewed [50,512]: (u, c) reads (0, u, c). -/
theorem rows50_apply (X : S1x50x512.Idx → α) (u : Fin 50) (c : Fin 512) :
    shapeCast S50x512 X shapeCasts_S1x50x512_S50x512 (ix2 u c) = X (ix3 0 u c) :=
  shapeCast_apply X _ (ix2 u c) (ix3 0 u c) (by
    rw [Shape.rowMajor_val_three, Shape.rowMajor_val_two]
    show (0 * 50 + u.val) * 512 + c.val = u.val * 512 + c.val; omega)

/-- A bias vector [512] viewed as a row [1,512]: (0, k) reads k. -/
theorem biasRow512_apply (X : S512.Idx → α) (k : Fin 512) :
    shapeCast S1x512 X shapeCasts_S512_S1x512 (ix2 0 k) = X (ix1 k) :=
  shapeCast_apply X _ (ix2 0 k) (ix1 k) (by
    rw [Shape.rowMajor_val_one, Shape.rowMajor_val_two]
    show k.val = 0 * 512 + k.val; omega)

/-- A bias vector [500] viewed as a row [1,500]: (0, v) reads v. -/
theorem biasRow500_apply (X : S500.Idx → α) (v : Fin 500) :
    shapeCast S1x500 X shapeCasts_S500_S1x500 (ix2 0 v) = X (ix1 v) :=
  shapeCast_apply X _ (ix2 0 v) (ix1 v) (by
    rw [Shape.rowMajor_val_one, Shape.rowMajor_val_two]
    show v.val = 0 * 500 + v.val; omega)

/-- The encoder projection [40,512] laid out [40,1,512]: (t, 0, k) reads (t, k). -/
theorem col40_apply (X : S40x512.Idx → α) (t : Fin 40) (k : Fin 512) :
    shapeCast S40x1x512 X shapeCasts_S40x512_S40x1x512 (ix3 t 0 k) = X (ix2 t k) :=
  shapeCast_apply X _ (ix3 t 0 k) (ix2 t k) (by
    rw [Shape.rowMajor_val_two, Shape.rowMajor_val_three]
    show t.val * 512 + k.val = (t.val * 1 + 0) * 512 + k.val; omega)

/-- The decoder projection [50,512] laid out [1,50,512]: (0, u, k) reads (u, k). -/
theorem row50_apply (X : S50x512.Idx → α) (u : Fin 50) (k : Fin 512) :
    shapeCast S1x50x512 X shapeCasts_S50x512_S1x50x512 (ix3 0 u k) = X (ix2 u k) :=
  shapeCast_apply X _ (ix3 0 u k) (ix2 u k) (by
    rw [Shape.rowMajor_val_two, Shape.rowMajor_val_three]
    show u.val * 512 + k.val = (0 * 50 + u.val) * 512 + k.val; omega)

/-- The hidden tensor [40,50,512] flattened to [2000,512]: row 50·t + u, column k reads (t, u, k). -/
theorem flatten_apply (X : S40x50x512.Idx → α) (t : Fin 40) (u : Fin 50) (r : Fin 2000) (hr : r.val = t.val * 50 + u.val)
    (k : Fin 512) : shapeCast S2000x512 X shapeCasts_S40x50x512_S2000x512 (ix2 r k) = X (ix3 t u k) :=
  shapeCast_apply X _ (ix2 r k) (ix3 t u k) (by
    rw [Shape.rowMajor_val_three, Shape.rowMajor_val_two]
    show (t.val * 50 + u.val) * 512 + k.val = r.val * 512 + k.val; rw [hr])

/-- The logits [2000,500] unflattened to [40,50,500]: (t, u, v) reads row 50·t + u, column v. -/
theorem unflatten_apply (X : S2000x500.Idx → α) (t : Fin 40) (u : Fin 50) (r : Fin 2000) (hr : r.val = t.val * 50 + u.val)
    (v : Fin 500) : shapeCast S40x50x500 X shapeCasts_S2000x500_S40x50x500 (ix3 t u v) = X (ix2 r v) :=
  shapeCast_apply X _ (ix3 t u v) (ix2 r v) (by
    rw [Shape.rowMajor_val_two, Shape.rowMajor_val_three]
    show r.val * 500 + v.val = (t.val * 50 + u.val) * 500 + v.val; rw [hr])

/-! ## Broadcasts: the unit axes read 0 -/

/-- A row [1,512] broadcast down 40 rows. -/
theorem down40_apply (X : S1x512.Idx → α) (t : Fin 40) (k : Fin 512) :
    broadcastTo S40x512 X broadcasts_S1x512_S40x512 (ix2 t k) = X (ix2 0 k) :=
  broadcastTo_apply X _ (ix2 t k) (ix2 0 k) (fun a => match a with
    | ⟨0, _⟩ => by show 0 = if (1 : Nat) = 1 then 0 else t.val; rw [if_pos rfl]
    | ⟨1, _⟩ => by show k.val = if (512 : Nat) = 1 then 0 else k.val; rw [if_neg (by decide)])

/-- A row [1,512] broadcast down 50 rows. -/
theorem down50_apply (X : S1x512.Idx → α) (u : Fin 50) (k : Fin 512) :
    broadcastTo S50x512 X broadcasts_S1x512_S50x512 (ix2 u k) = X (ix2 0 k) :=
  broadcastTo_apply X _ (ix2 u k) (ix2 0 k) (fun a => match a with
    | ⟨0, _⟩ => by show 0 = if (1 : Nat) = 1 then 0 else u.val; rw [if_pos rfl]
    | ⟨1, _⟩ => by show k.val = if (512 : Nat) = 1 then 0 else k.val; rw [if_neg (by decide)])

/-- A row [1,500] broadcast down 2000 rows. -/
theorem down2000_apply (X : S1x500.Idx → α) (r : Fin 2000) (v : Fin 500) :
    broadcastTo S2000x500 X broadcasts_S1x500_S2000x500 (ix2 r v) = X (ix2 0 v) :=
  broadcastTo_apply X _ (ix2 r v) (ix2 0 v) (fun a => match a with
    | ⟨0, _⟩ => by show 0 = if (1 : Nat) = 1 then 0 else r.val; rw [if_pos rfl]
    | ⟨1, _⟩ => by show v.val = if (500 : Nat) = 1 then 0 else v.val; rw [if_neg (by decide)])

/-- The encoder projection [40,1,512] broadcast along the decoder axis. -/
theorem alongDec_apply (X : S40x1x512.Idx → α) (t : Fin 40) (u : Fin 50) (k : Fin 512) :
    broadcastTo S40x50x512 X broadcasts_S40x1x512_S40x50x512 (ix3 t u k) = X (ix3 t 0 k) :=
  broadcastTo_apply X _ (ix3 t u k) (ix3 t 0 k) (fun a => match a with
    | ⟨0, _⟩ => by show t.val = if (40 : Nat) = 1 then 0 else t.val; rw [if_neg (by decide)]
    | ⟨1, _⟩ => by show 0 = if (1 : Nat) = 1 then 0 else u.val; rw [if_pos rfl]
    | ⟨2, _⟩ => by show k.val = if (512 : Nat) = 1 then 0 else k.val; rw [if_neg (by decide)])

/-- The decoder projection [1,50,512] broadcast along the encoder axis. -/
theorem alongEnc_apply (X : S1x50x512.Idx → α) (t : Fin 40) (u : Fin 50) (k : Fin 512) :
    broadcastTo S40x50x512 X broadcasts_S1x50x512_S40x50x512 (ix3 t u k) = X (ix3 0 u k) :=
  broadcastTo_apply X _ (ix3 t u k) (ix3 0 u k) (fun a => match a with
    | ⟨0, _⟩ => by show 0 = if (1 : Nat) = 1 then 0 else t.val; rw [if_pos rfl]
    | ⟨1, _⟩ => by show u.val = if (50 : Nat) = 1 then 0 else u.val; rw [if_neg (by decide)]
    | ⟨2, _⟩ => by show k.val = if (512 : Nat) = 1 then 0 else k.val; rw [if_neg (by decide)])

end Casts

/-! ## The matrix unit's products into a zero accumulator: the bare sum over the feature axis

Each contracts axis 1 of both operands (rows times the TRANSPOSED weights); the contraction index has one
coordinate, through which the sum is re-indexed by `Fin 512`. -/

theorem mm40_lhs0 (i : S40x512.Idx) (q : dot_S40x512_S512x512_S40x512_1_1_0_0_n_n.contr.Idx) : (dot_S40x512_S512x512_S40x512_1_1_0_0_n_n.lhsIdx i q 0).val = (i 0).val := by
  unfold DotDims.lhsIdx
  rw [dif_neg (show ¬(0 : Fin S40x512.rank) ∈ dot_S40x512_S512x512_S40x512_1_1_0_0_n_n.lhsBatch by decide), dif_pos (show (0 : Fin S40x512.rank) ∈ dot_S40x512_S512x512_S40x512_1_1_0_0_n_n.lhsNonContracting by decide)]
  rfl
theorem mm40_lhs1 (i : S40x512.Idx) (q : dot_S40x512_S512x512_S40x512_1_1_0_0_n_n.contr.Idx) : (dot_S40x512_S512x512_S40x512_1_1_0_0_n_n.lhsIdx i q 1).val = (q ⟨0, by decide⟩).val :=
  dot_S40x512_S512x512_S40x512_1_1_0_0_n_n.lhsIdx_val_of_single rfl i q
theorem mm40_rhs0 (i : S40x512.Idx) (q : dot_S40x512_S512x512_S40x512_1_1_0_0_n_n.contr.Idx) : (dot_S40x512_S512x512_S40x512_1_1_0_0_n_n.rhsIdx i q 0).val = (i 1).val := by
  unfold DotDims.rhsIdx
  rw [dif_neg (show ¬(0 : Fin S512x512.rank) ∈ dot_S40x512_S512x512_S40x512_1_1_0_0_n_n.rhsBatch by decide), dif_pos (show (0 : Fin S512x512.rank) ∈ dot_S40x512_S512x512_S40x512_1_1_0_0_n_n.rhsNonContracting by decide)]
  rfl
theorem mm40_rhs1 (i : S40x512.Idx) (q : dot_S40x512_S512x512_S40x512_1_1_0_0_n_n.contr.Idx) : (dot_S40x512_S512x512_S40x512_1_1_0_0_n_n.rhsIdx i q 1).val = (q ⟨0, by decide⟩).val :=
  dot_S40x512_S512x512_S40x512_1_1_0_0_n_n.rhsIdx_val_of_single rfl i q

/-- Encoder rows times transposed weights: entry (t, k) is the sum over c of A[t,c]·B[k,c]. -/
theorem mm40_apply (A : FVec Ideal S40x512 .bf16) (B : FVec Ideal S512x512 .bf16) (t : Fin 40) (k : Fin 512) :
    FloatOps.matmul dot_S40x512_S512x512_S40x512_1_1_0_0_n_n none A B (constant (F := Ideal) S40x512 .f32 0x00000000#32) (ix2 t k)
      = ∑ c : Fin 512, A (ix2 t c) * B (ix2 k c) := by
  rw [Ideal.matmul_constant_zero_apply, ← Equiv.sum_comp (contrEquiv1 dot_S40x512_S512x512_S40x512_1_1_0_0_n_n 512 rfl rfl).symm]
  refine Finset.sum_congr rfl fun c _ => ?_
  have hc := contrEquiv1_symm_val dot_S40x512_S512x512_S40x512_1_1_0_0_n_n 512 rfl rfl c
  have el : dot_S40x512_S512x512_S40x512_1_1_0_0_n_n.lhsIdx (ix2 t k) ((contrEquiv1 dot_S40x512_S512x512_S40x512_1_1_0_0_n_n 512 rfl rfl).symm c) = ix2 t c := funext fun a => Fin.ext (by
    match a with
    | ⟨0, _⟩ => exact mm40_lhs0 _ _
    | ⟨1, _⟩ => exact (mm40_lhs1 _ _).trans hc)
  have er : dot_S40x512_S512x512_S40x512_1_1_0_0_n_n.rhsIdx (ix2 t k) ((contrEquiv1 dot_S40x512_S512x512_S40x512_1_1_0_0_n_n 512 rfl rfl).symm c) = ix2 k c := funext fun a => Fin.ext (by
    match a with
    | ⟨0, _⟩ => exact mm40_rhs0 _ _
    | ⟨1, _⟩ => exact (mm40_rhs1 _ _).trans hc)
  rw [el, er]

theorem mm50_lhs0 (i : S50x512.Idx) (q : dot_S50x512_S512x512_S50x512_1_1_0_0_n_n.contr.Idx) : (dot_S50x512_S512x512_S50x512_1_1_0_0_n_n.lhsIdx i q 0).val = (i 0).val := by
  unfold DotDims.lhsIdx
  rw [dif_neg (show ¬(0 : Fin S50x512.rank) ∈ dot_S50x512_S512x512_S50x512_1_1_0_0_n_n.lhsBatch by decide), dif_pos (show (0 : Fin S50x512.rank) ∈ dot_S50x512_S512x512_S50x512_1_1_0_0_n_n.lhsNonContracting by decide)]
  rfl
theorem mm50_lhs1 (i : S50x512.Idx) (q : dot_S50x512_S512x512_S50x512_1_1_0_0_n_n.contr.Idx) : (dot_S50x512_S512x512_S50x512_1_1_0_0_n_n.lhsIdx i q 1).val = (q ⟨0, by decide⟩).val :=
  dot_S50x512_S512x512_S50x512_1_1_0_0_n_n.lhsIdx_val_of_single rfl i q
theorem mm50_rhs0 (i : S50x512.Idx) (q : dot_S50x512_S512x512_S50x512_1_1_0_0_n_n.contr.Idx) : (dot_S50x512_S512x512_S50x512_1_1_0_0_n_n.rhsIdx i q 0).val = (i 1).val := by
  unfold DotDims.rhsIdx
  rw [dif_neg (show ¬(0 : Fin S512x512.rank) ∈ dot_S50x512_S512x512_S50x512_1_1_0_0_n_n.rhsBatch by decide), dif_pos (show (0 : Fin S512x512.rank) ∈ dot_S50x512_S512x512_S50x512_1_1_0_0_n_n.rhsNonContracting by decide)]
  rfl
theorem mm50_rhs1 (i : S50x512.Idx) (q : dot_S50x512_S512x512_S50x512_1_1_0_0_n_n.contr.Idx) : (dot_S50x512_S512x512_S50x512_1_1_0_0_n_n.rhsIdx i q 1).val = (q ⟨0, by decide⟩).val :=
  dot_S50x512_S512x512_S50x512_1_1_0_0_n_n.rhsIdx_val_of_single rfl i q

/-- Decoder rows times transposed weights: entry (u, k) is the sum over c of A[u,c]·B[k,c]. -/
theorem mm50_apply (A : FVec Ideal S50x512 .bf16) (B : FVec Ideal S512x512 .bf16) (u : Fin 50) (k : Fin 512) :
    FloatOps.matmul dot_S50x512_S512x512_S50x512_1_1_0_0_n_n none A B (constant (F := Ideal) S50x512 .f32 0x00000000#32) (ix2 u k)
      = ∑ c : Fin 512, A (ix2 u c) * B (ix2 k c) := by
  rw [Ideal.matmul_constant_zero_apply, ← Equiv.sum_comp (contrEquiv1 dot_S50x512_S512x512_S50x512_1_1_0_0_n_n 512 rfl rfl).symm]
  refine Finset.sum_congr rfl fun c _ => ?_
  have hc := contrEquiv1_symm_val dot_S50x512_S512x512_S50x512_1_1_0_0_n_n 512 rfl rfl c
  have el : dot_S50x512_S512x512_S50x512_1_1_0_0_n_n.lhsIdx (ix2 u k) ((contrEquiv1 dot_S50x512_S512x512_S50x512_1_1_0_0_n_n 512 rfl rfl).symm c) = ix2 u c := funext fun a => Fin.ext (by
    match a with
    | ⟨0, _⟩ => exact mm50_lhs0 _ _
    | ⟨1, _⟩ => exact (mm50_lhs1 _ _).trans hc)
  have er : dot_S50x512_S512x512_S50x512_1_1_0_0_n_n.rhsIdx (ix2 u k) ((contrEquiv1 dot_S50x512_S512x512_S50x512_1_1_0_0_n_n 512 rfl rfl).symm c) = ix2 k c := funext fun a => Fin.ext (by
    match a with
    | ⟨0, _⟩ => exact mm50_rhs0 _ _
    | ⟨1, _⟩ => exact (mm50_rhs1 _ _).trans hc)
  rw [el, er]

theorem mm2000_lhs0 (i : S2000x500.Idx) (q : dot_S2000x512_S500x512_S2000x500_1_1_0_0_n_n.contr.Idx) : (dot_S2000x512_S500x512_S2000x500_1_1_0_0_n_n.lhsIdx i q 0).val = (i 0).val := by
  unfold DotDims.lhsIdx
  rw [dif_neg (show ¬(0 : Fin S2000x512.rank) ∈ dot_S2000x512_S500x512_S2000x500_1_1_0_0_n_n.lhsBatch by decide), dif_pos (show (0 : Fin S2000x512.rank) ∈ dot_S2000x512_S500x512_S2000x500_1_1_0_0_n_n.lhsNonContracting by decide)]
  rfl
theorem mm2000_lhs1 (i : S2000x500.Idx) (q : dot_S2000x512_S500x512_S2000x500_1_1_0_0_n_n.contr.Idx) : (dot_S2000x512_S500x512_S2000x500_1_1_0_0_n_n.lhsIdx i q 1).val = (q ⟨0, by decide⟩).val :=
  dot_S2000x512_S500x512_S2000x500_1_1_0_0_n_n.lhsIdx_val_of_single rfl i q
theorem mm2000_rhs0 (i : S2000x500.Idx) (q : dot_S2000x512_S500x512_S2000x500_1_1_0_0_n_n.contr.Idx) : (dot_S2000x512_S500x512_S2000x500_1_1_0_0_n_n.rhsIdx i q 0).val = (i 1).val := by
  unfold DotDims.rhsIdx
  rw [dif_neg (show ¬(0 : Fin S500x512.rank) ∈ dot_S2000x512_S500x512_S2000x500_1_1_0_0_n_n.rhsBatch by decide), dif_pos (show (0 : Fin S500x512.rank) ∈ dot_S2000x512_S500x512_S2000x500_1_1_0_0_n_n.rhsNonContracting by decide)]
  rfl
theorem mm2000_rhs1 (i : S2000x500.Idx) (q : dot_S2000x512_S500x512_S2000x500_1_1_0_0_n_n.contr.Idx) : (dot_S2000x512_S500x512_S2000x500_1_1_0_0_n_n.rhsIdx i q 1).val = (q ⟨0, by decide⟩).val :=
  dot_S2000x512_S500x512_S2000x500_1_1_0_0_n_n.rhsIdx_val_of_single rfl i q

/-- Hidden rows times transposed output weights: entry (r, v) is the sum over c of A[r,c]·B[v,c]. -/
theorem mm2000_apply (A : FVec Ideal S2000x512 .bf16) (B : FVec Ideal S500x512 .bf16) (r : Fin 2000) (v : Fin 500) :
    FloatOps.matmul dot_S2000x512_S500x512_S2000x500_1_1_0_0_n_n none A B (constant (F := Ideal) S2000x500 .f32 0x00000000#32) (ix2 r v)
      = ∑ c : Fin 512, A (ix2 r c) * B (ix2 v c) := by
  rw [Ideal.matmul_constant_zero_apply, ← Equiv.sum_comp (contrEquiv1 dot_S2000x512_S500x512_S2000x500_1_1_0_0_n_n 512 rfl rfl).symm]
  refine Finset.sum_congr rfl fun c _ => ?_
  have hc := contrEquiv1_symm_val dot_S2000x512_S500x512_S2000x500_1_1_0_0_n_n 512 rfl rfl c
  have el : dot_S2000x512_S500x512_S2000x500_1_1_0_0_n_n.lhsIdx (ix2 r v) ((contrEquiv1 dot_S2000x512_S500x512_S2000x500_1_1_0_0_n_n 512 rfl rfl).symm c) = ix2 r c := funext fun a => Fin.ext (by
    match a with
    | ⟨0, _⟩ => exact mm2000_lhs0 _ _
    | ⟨1, _⟩ => exact (mm2000_lhs1 _ _).trans hc)
  have er : dot_S2000x512_S500x512_S2000x500_1_1_0_0_n_n.rhsIdx (ix2 r v) ((contrEquiv1 dot_S2000x512_S500x512_S2000x500_1_1_0_0_n_n 512 rfl rfl).symm c) = ix2 v c := funext fun a => Fin.ext (by
    match a with
    | ⟨0, _⟩ => exact mm2000_rhs0 _ _
    | ⟨1, _⟩ => exact (mm2000_rhs1 _ _).trans hc)
  rw [el, er]

end Cert.Joiner.Body

end
-- ==== Proof.BodyJoint.lean ====
/-
  The kernel body's result at one index, as the specification's three stages of the body's eight loads.

  The body computes, from the block of 40 encoder rows, the block of 50 decoder rows and the whole weight and
  bias arrays: the two projections (each a product with transposed weights plus a broadcast bias row), the tanh
  of their broadcast sum over (t, u), flattened to rows 50·t + u, and the output projection of those 2000 rows,
  unflattened back to (t, u, v). The changes of float format on the way into each product are the identity on
  the extended reals. So at (t, u, v) the body's value is the logit of the hidden row of (encoder row t of the
  block, decoder row u of the block).
-/
import proofs.«170664_j14035953123456_1_alg».proof.Proof.Gen.KernelIdeal.Skeleton
import proofs.«170664_j14035953123456_1_alg».proof.Proof.BodyLayout
import proofs.«170664_j14035953123456_1_alg».proof.Proof.JoinerSpec

noncomputable section

open scoped BigOperators

namespace Cert.Joiner.Body

open Cert.KernelIdeal Cert.KernelIdeal.Gen Idealize.ShloMosaic Idealize.ShloMosaic.ValueIdx Cert.Joiner

/-! ## The body's four stages, as the printed operations -/

/-- The encoder projection of the block's 40 rows. -/
def encRows (P0 : FVec Ideal S1x40x512 .f32) (P2 : FVec Ideal S512x512 .f32) (P5 : FVec Ideal S512 .f32) : FVec Ideal S40x512 .f32 :=
  addf (FloatOps.matmul dot_S40x512_S512x512_S40x512_1_1_0_0_n_n none (truncf .bf16 (shapeCast S40x512 P0 shapeCasts_S1x40x512_S40x512) bitsLt_bf16_f32)
      (truncf .bf16 P2 bitsLt_bf16_f32) (constant (F := Ideal) S40x512 .f32 0x00000000#32))
    (broadcastTo S40x512 (shapeCast S1x512 P5 shapeCasts_S512_S1x512) broadcasts_S1x512_S40x512)

/-- The decoder projection of the block's 50 rows. -/
def decRows (P1 : FVec Ideal S1x50x512 .f32) (P3 : FVec Ideal S512x512 .f32) (P6 : FVec Ideal S512 .f32) : FVec Ideal S50x512 .f32 :=
  addf (FloatOps.matmul dot_S50x512_S512x512_S50x512_1_1_0_0_n_n none (truncf .bf16 (shapeCast S50x512 P1 shapeCasts_S1x50x512_S50x512) bitsLt_bf16_f32)
      (truncf .bf16 P3 bitsLt_bf16_f32) (constant (F := Ideal) S50x512 .f32 0x00000000#32))
    (broadcastTo S50x512 (shapeCast S1x512 P6 shapeCasts_S512_S1x512) broadcasts_S1x512_S50x512)

/-- The hidden rows: tanh of the two projections' broadcast sum, one row per (t, u). -/
def hiddenRows (e : FVec Ideal S40x512 .f32) (d : FVec Ideal S50x512 .f32) : FVec Ideal S2000x512 .bf16 :=
  shapeCast S2000x512
    (truncf .bf16
      (tanh (addf (broadcastTo S40x50x512 (shapeCast S40x1x512 e shapeCasts_S40x512_S40x1x512) broadcasts_S40x1x512_S40x50x512)
        (broadcastTo S40x50x512 (shapeCast S1x50x512 d shapeCasts_S50x512_S1x50x512) broadcasts_S1x50x512_S40x50x512)))
      bitsLt_bf16_f32)
    shapeCasts_S40x50x512_S2000x512

/-- The output projection of the hidden rows, back at (t, u, v). -/
def logitRows (h : FVec Ideal S2000x512 .bf16) (P4 : FVec Ideal S500x512 .f32) (P7 : FVec Ideal S500 .f32) : FVec Ideal S40x50x500 .f32 :=
  shapeCast S40x50x500
    (addf (FloatOps.matmul dot_S2000x512_S500x512_S2000x500_1_1_0_0_n_n none h (truncf .bf16 P4 bitsLt_bf16_f32) (constant (F := Ideal) S2000x500 .f32 0x00000000#32))
      (broadcastTo S2000x500 (shapeCast S1x500 P7 shapeCasts_S500_S1x500) broadcasts_S1x500_S2000x500))
    shapeCasts_S2000x500_S40x50x500

/-- The body's arithmetic is these four stages composed. -/
theorem pay_eq (P0 : FVec Ideal S1x40x512 .f32) (P1 : FVec Ideal S1x50x512 .f32) (P2 P3 : FVec Ideal S512x512 .f32)
    (P4 : FVec Ideal S500x512 .f32) (P5 P6 : FVec Ideal S512 .f32) (P7 : FVec Ideal S500 .f32) :
    k0_pay2 (F := Ideal) P0 P1 P2 P3 P4 P5 P6 P7 = logitRows (hiddenRows (encRows P0 P2 P5) (decRows P1 P3 P6)) P4 P7 := rfl

/-! ## Each stage at an index -/

/-- Row t of the encoder projection at k: the projection of the block's encoder row t. -/
theorem encRows_apply (P0 : FVec Ideal S1x40x512 .f32) (P2 : FVec Ideal S512x512 .f32) (P5 : FVec Ideal S512 .f32)
    (t : Fin 40) (k : Fin 512) : encRows P0 P2 P5 (ix2 t k) = proj (fun c => P0 (ix3 0 t c)) P2 P5 k := by
  unfold encRows proj
  rw [addf_apply, mm40_apply, down40_apply, biasRow512_apply]
  refine congrArg (· + P5 (ix1 k)) (Finset.sum_congr rfl fun c _ => ?_)
  rw [truncf_apply, truncf_apply, rows40_apply]

/-- Row u of the decoder projection at k: the projection of the block's decoder row u. -/
theorem decRows_apply (P1 : FVec Ideal S1x50x512 .f32) (P3 : FVec Ideal S512x512 .f32) (P6 : FVec Ideal S512 .f32)
    (u : Fin 50) (k : Fin 512) : decRows P1 P3 P6 (ix2 u k) = proj (fun c => P1 (ix3 0 u c)) P3 P6 k := by
  unfold decRows proj
  rw [addf_apply, mm50_apply, down50_apply, biasRow512_apply]
  refine congrArg (· + P6 (ix1 k)) (Finset.sum_congr rfl fun c _ => ?_)
  rw [truncf_apply, truncf_apply, rows50_apply]

/-- Hidden row 50·t + u at k: tanh of the two projections' entries (t, k) and (u, k). -/
theorem hiddenRows_apply (e : FVec Ideal S40x512 .f32) (d : FVec Ideal S50x512 .f32) (t : Fin 40) (u : Fin 50)
    (r : Fin 2000) (hr : r.val = t.val * 50 + u.val) (k : Fin 512) :
    hiddenRows e d (ix2 r k) = Ideal.tanh (e (ix2 t k) + d (ix2 u k)) := by
  unfold hiddenRows
  rw [flatten_apply _ t u r hr k, truncf_apply, tanh_apply, addf_apply, alongDec_apply, alongEnc_apply, col40_apply, row50_apply]

/-- The output projection at (t, u, v): the logit of hidden row 50·t + u. -/
theorem logitRows_apply (h : FVec Ideal S2000x512 .bf16) (P4 : FVec Ideal S500x512 .f32) (P7 : FVec Ideal S500 .f32)
    (t : Fin 40) (u : Fin 50) (r : Fin 2000) (hr : r.val = t.val * 50 + u.val) (v : Fin 500) :
    logitRows h P4 P7 (ix3 t u v) = logit (fun j => h (ix2 r j)) P4 P7 v := by
  unfold logitRows logit
  rw [unflatten_apply _ t u r hr v, addf_apply, mm2000_apply, down2000_apply, biasRow500_apply]
  refine congrArg (· + P7 (ix1 v)) (Finset.sum_congr rfl fun j _ => ?_)
  rw [truncf_apply]

/-! ## The body at an index -/

/-- The body's value at (t, u, v) is the logit at v of the hidden row of the block's encoder row t and decoder
    row u — the specification's three stages of the body's loads. -/
theorem pay_apply (P0 : FVec Ideal S1x40x512 .f32) (P1 : FVec Ideal S1x50x512 .f32) (P2 P3 : FVec Ideal S512x512 .f32)
    (P4 : FVec Ideal S500x512 .f32) (P5 P6 : FVec Ideal S512 .f32) (P7 : FVec Ideal S500 .f32)
    (t : Fin 40) (u : Fin 50) (v : Fin 500) :
    k0_pay2 (F := Ideal) P0 P1 P2 P3 P4 P5 P6 P7 (ix3 t u v)
      = logit (hidden (fun c => P0 (ix3 0 t c)) (fun c => P1 (ix3 0 u c)) P2 P5 P3 P6) P4 P7 v := by
  have hr : t.val * 50 + u.val < 2000 := by have := t.isLt; have := u.isLt; omega
  rw [pay_eq, logitRows_apply _ P4 P7 t u ⟨t.val * 50 + u.val, hr⟩ rfl v]
  unfold logit
  refine congrArg (· + P7 (ix1 v)) (Finset.sum_congr rfl fun j _ => ?_)
  refine congrArg (· * P4 (ix2 v j)) ?_
  show hiddenRows (encRows P0 P2 P5) (decRows P1 P3 P6) (ix2 ⟨t.val * 50 + u.val, hr⟩ j) = _
  rw [hiddenRows_apply _ _ t u ⟨t.val * 50 + u.val, hr⟩ rfl j, encRows_apply, decRows_apply]
  rfl

end Cert.Joiner.Body

end
-- ==== Proof.BlocksJoint.lean ====
/-
  From blocks to the array: after the run the result array IS the joint network's logits of the argument arrays.

  Grid point (n, b) of the 8 × 5 grid fetches encoder rows 40·b … 40·b + 39 of batch entry n, all 50 decoder
  rows of batch entry n and the whole weight and bias arrays, and writes back block (n, b) of the result:
  frames 40·b … 40·b + 39 of batch entry n, every decoder step and vocabulary entry. So element (0, t, u, v) of
  what the point writes back is the body's value at (t, u, v), the logit of (encoder row (n, 40·b + t), decoder
  row (n, u)) — the specification at the array index (n, 40·b + t, u, v) under it. The 40 blocks tile the
  array (the point covering frame τ of entry n is (n, τ / 40)), hence the whole-array statement.
-/
import proofs.«170664_j14035953123456_1_alg».proof.Proof.Gen.KernelIdeal.Value
import proofs.«170664_j14035953123456_1_alg».proof.Proof.BodyJoint

noncomputable section

open scoped BigOperators

namespace Cert.Joiner.Blocks

open Cert.KernelIdeal Cert.KernelIdeal.Gen Idealize.ShloMosaic Idealize.ShloMosaic.TcCoe Idealize.SL.Sem
open Idealize.ShloMosaic.ValueIdx Cert.Joiner Cert.Joiner.Body
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps over the grid -/

/-- The encoder block moves with the result block on the batch and frame axes; the decoder block on the batch
    axis only; the result's block index is (n, b, 0, 0) with n < 8, b < 5. -/
theorem moving_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_8.index t (2 : Fin 4) = 0 ∧ win0_8.index t (3 : Fin 4) = 0
    ∧ win0_8.index t (0 : Fin 4) < 8 ∧ win0_8.index t (1 : Fin 4) < 5 :=
  (by decide +kernel : ∀ t : Fin grid0.N, _)

/-- The weight and bias windows are their whole arrays at every point: block index zero on every axis. -/
theorem whole_facts : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

/-- Every (batch entry, frame tile) pair is some grid point's result block. -/
theorem tile_onto : ∀ (q0 : Fin 8) (q1 : Fin 5), ∃ t : Fin cfg0.N, win0_8.index t = ![q0.val, q1.val, 0, 0] :=
  (by decide +kernel : ∀ (q0 : Fin 8) (q1 : Fin 5), ∃ t : Fin grid0.N, win0_8.index t = ![q0.val, q1.val, 0, 0])

/-! ## Each input block as entries of its argument array -/

/-- Row r of the encoder block at a point is encoder row (n, 40·b + r), (n, b) the result's block index. -/
theorem enc_block (c : Dev nD) (t : Fin cfg0.N) (r : Fin 40) (k : Fin 512) (n : Fin 8) (f : Fin 200)
    (hn : n.val = win0_8.index t (0 : Fin 4)) (hf : f.val = win0_8.index t (1 : Fin 4) * 40 + r.val) :
    (iblk m c 0 t : FVec Ideal S1x40x512 .f32) (ix3 0 r k) = (V m c main_arg0 : S8x200x512.Idx → EReal) (ix3 n f k) := by
  obtain ⟨e0, e1, e2, -⟩ := moving_facts t
  unfold iblk
  rw [View.read_apply]
  show V m c main_arg0 _ = V m c main_arg0 _
  congr 1
  funext a
  apply Fin.ext
  match a with
  | ⟨0, _⟩ => show win0_0.index t (0 : Fin 3) * 1 + 1 * 0 = n.val; rw [e0, hn]; omega
  | ⟨1, _⟩ => show win0_0.index t (1 : Fin 3) * 40 + 1 * r.val = f.val; rw [e1, hf]; omega
  | ⟨2, _⟩ => show win0_0.index t (2 : Fin 3) * 512 + 1 * k.val = k.val; rw [e2]; omega

/-- Row u of the decoder block at a point is decoder row (n, u). -/
theorem dec_block (c : Dev nD) (t : Fin cfg0.N) (u : Fin 50) (k : Fin 512) (n : Fin 8)
    (hn : n.val = win0_8.index t (0 : Fin 4)) :
    (iblk m c 1 t : FVec Ideal S1x50x512 .f32) (ix3 0 u k) = (V m c main_arg1 : S8x50x512.Idx → EReal) (ix3 n u k) := by
  obtain ⟨-, -, -, e0, e1, e2, -⟩ := moving_facts t
  unfold iblk
  rw [View.read_apply]
  show V m c main_arg1 _ = V m c main_arg1 _
  congr 1
  funext a
  apply Fin.ext
  match a with
  | ⟨0, _⟩ => show win0_1.index t (0 : Fin 3) * 1 + 1 * 0 = n.val; rw [e0, hn]; omega
  | ⟨1, _⟩ => show win0_1.index t (1 : Fin 3) * 50 + 1 * u.val = u.val; rw [e1]; omega
  | ⟨2, _⟩ => show win0_1.index t (2 : Fin 3) * 512 + 1 * k.val = k.val; rw [e2]; omega

/-- The encoder weights' block is the whole array. -/
theorem wenc_block (c : Dev nD) (t : Fin cfg0.N) : (iblk m c 2 t : FVec Ideal S512x512 .f32) = V m c main_arg2 := by
  funext x
  unfold iblk
  rw [View.read_apply]
  show V m c main_arg2 _ = V m c main_arg2 x
  congr 1
  funext a
  apply Fin.ext
  match a with
  | ⟨0, _⟩ => show win0_2.index t (0 : Fin 2) * 512 + 1 * (x 0).val = (x 0).val; rw [(whole_facts t).1]; omega
  | ⟨1, _⟩ => show win0_2.index t (1 : Fin 2) * 512 + 1 * (x 1).val = (x 1).val; rw [(whole_facts t).2.1]; omega

/-- The encoder bias's block is the whole array. -/
theorem benc_block (c : Dev nD) (t : Fin cfg0.N) : (iblk m c 3 t : FVec Ideal S512 .f32) = V m c main_arg3 := by
  funext x
  unfold iblk
  rw [View.read_apply]
  show V m c main_arg3 _ = V m c main_arg3 x
  congr 1
  funext a
  apply Fin.ext
  match a with
  | ⟨0, _⟩ => show win0_3.index t (0 : Fin 1) * 512 + 1 * (x 0).val = (x 0).val; rw [(whole_facts t).2.2.1]; omega

/-- The decoder weights' block is the whole array. -/
theorem wdec_block (c : Dev nD) (t : Fin cfg0.N) : (iblk m c 4 t : FVec Ideal S512x512 .f32) = V m c main_arg4 := by
  funext x
  unfold iblk
  rw [View.read_apply]
  show V m c main_arg4 _ = V m c main_arg4 x
  congr 1
  funext a
  apply Fin.ext
  match a with
  | ⟨0, _⟩ => show win0_4.index t (0 : Fin 2) * 512 + 1 * (x 0).val = (x 0).val; rw [(whole_facts t).2.2.2.1]; omega
  | ⟨1, _⟩ => show win0_4.index t (1 : Fin 2) * 512 + 1 * (x 1).val = (x 1).val; rw [(whole_facts t).2.2.2.2.1]; omega

/-- The decoder bias's block is the whole array. -/
theorem bdec_block (c : Dev nD) (t : Fin cfg0.N) : (iblk m c 5 t : FVec Ideal S512 .f32) = V m c main_arg5 := by
  funext x
  unfold iblk
  rw [View.read_apply]
  show V m c main_arg5 _ = V m c main_arg5 x
  congr 1
  funext a
  apply Fin.ext
  match a with
  | ⟨0, _⟩ => show win0_5.index t (0 : Fin 1) * 512 + 1 * (x 0).val = (x 0).val; rw [(whole_facts t).2.2.2.2.2.1]; omega

/-- The output weights' block is the whole array. -/
theorem wout_block (c : Dev nD) (t : Fin cfg0.N) : (iblk m c 6 t : FVec Ideal S500x512 .f32) = V m c main_arg6 := by
  funext x
  unfold iblk
  rw [View.read_apply]
  show V m c main_arg6 _ = V m c main_arg6 x
  congr 1
  funext a
  apply Fin.ext
  match a with
  | ⟨0, _⟩ => show win0_6.index t (0 : Fin 2) * 500 + 1 * (x 0).val = (x 0).val; rw [(whole_facts t).2.2.2.2.2.2.1]; omega
  | ⟨1, _⟩ => show win0_6.index t (1 : Fin 2) * 512 + 1 * (x 1).val = (x 1).val; rw [(whole_facts t).2.2.2.2.2.2.2.1]; omega

/-- The output bias's block is the whole array. -/
theorem bout_block (c : Dev nD) (t : Fin cfg0.N) : (iblk m c 7 t : FVec Ideal S500 .f32) = V m c main_arg7 := by
  funext x
  unfold iblk
  rw [View.read_apply]
  show V m c main_arg7 _ = V m c main_arg7 x
  congr 1
  funext a
  apply Fin.ext
  match a with
  | ⟨0, _⟩ => show win0_7.index t (0 : Fin 1) * 500 + 1 * (x 0).val = (x 0).val; rw [(whole_facts t).2.2.2.2.2.2.2.2]; omega

/-! ## What a point writes back -/

/-- The body's value at (t, u, v), when its encoder rows are rows 40·b + · of batch entry n of an array A0 and
    its decoder rows are the rows of batch entry n of an array A1, is the specification at (n, 40·b + t, u, v). -/
theorem point_eq (x0 : FVec Ideal S1x40x512 .f32) (x1 : FVec Ideal S1x50x512 .f32) (x2 : FVec Ideal S512x512 .f32)
    (x3 : FVec Ideal S512 .f32) (x4 : FVec Ideal S512x512 .f32) (x5 : FVec Ideal S512 .f32) (x6 : FVec Ideal S500x512 .f32)
    (x7 : FVec Ideal S500 .f32) (A0 : S8x200x512.Idx → EReal) (A1 : S8x50x512.Idx → EReal)
    (n : Fin 8) (t : Fin 40) (f : Fin 200) (u : Fin 50) (v : Fin 500)
    (h0 : ∀ k : Fin 512, x0 (ix3 0 t k) = A0 (ix3 n f k)) (h1 : ∀ k : Fin 512, x1 (ix3 0 u k) = A1 (ix3 n u k)) :
    k0_pay2 (F := Ideal) x0 x1 x2 x4 x6 x3 x5 x7 (ix3 t u v) = joint A0 A1 x2 x3 x4 x5 x6 x7 (ix4 n f u v) := by
  rw [pay_apply, show (fun k => x0 (ix3 0 t k)) = fun k => A0 (ix3 n f k) from funext h0,
    show (fun k => x1 (ix3 0 u k)) = fun k => A1 (ix3 n u k) from funext h1]
  rfl

/-- Element y of what point `t` leaves in the result's staging buffer is the specification at the array index
    under y in the point's block. -/
theorem written_apply (c : Dev nD) (t : Fin cfg0.N) (y : S1x40x50x500.Idx) :
    out0_8 (F := Ideal) (iblk m c 0 t) (iblk m c 1 t) (iblk m c 2 t) (iblk m c 3 t) (iblk m c 4 t) (iblk m c 5 t) (iblk m c 6 t) (iblk m c 7 t) y
      = joint (V m c main_arg0) (V m c main_arg1) (V m c main_arg2) (V m c main_arg3) (V m c main_arg4) (V m c main_arg5) (V m c main_arg6) (V m c main_arg7) (((cfg0.win 8).blk t).view.emb y) := by
  obtain ⟨-, -, -, -, -, -, e2, e3, l0, l1⟩ := moving_facts t
  have hy0 : (y 0).val < 1 := (y 0).isLt
  have hy1 : (y 1).val < 40 := (y 1).isLt
  have hy2 : (y 2).val < 50 := (y 2).isLt
  have hy3 : (y 3).val < 500 := (y 3).isLt
  have hf : win0_8.index t (1 : Fin 4) * 40 + (y 1).val < 200 := by omega
  have hix : Cert.KernelIdeal.Value.ix8_0 y = ix3 (⟨(y 1).val, hy1⟩ : Fin 40) (⟨(y 2).val, hy2⟩ : Fin 50) (⟨(y 3).val, hy3⟩ : Fin 500) :=
    funext fun a => by match a with | ⟨0, _⟩ => rfl | ⟨1, _⟩ => rfl | ⟨2, _⟩ => rfl
  unfold out0_8
  rw [Cert.KernelIdeal.Value.canon8_eq]
  show k0_pay2 (F := Ideal) _ _ _ _ _ _ _ _ (Cert.KernelIdeal.Value.ix8_0 y) = _
  simp only [View.ld_unit_zero (S := S1x40x512) hz3, View.ld_unit_zero (S := S1x50x512) hz3, View.ld_unit_zero (S := S512x512) hz2,
    View.ld_unit_zero (S := S500x512) hz2, View.ld_unit_zero (S := S512) hz1, View.ld_unit_zero (S := S500) hz1]
  rw [hix]
  refine (point_eq (iblk m c 0 t) (iblk m c 1 t) (iblk m c 2 t) (iblk m c 3 t) (iblk m c 4 t) (iblk m c 5 t) (iblk m c 6 t) (iblk m c 7 t)
    (V m c main_arg0) (V m c main_arg1) ⟨win0_8.index t (0 : Fin 4), l0⟩ ⟨(y 1).val, hy1⟩ ⟨win0_8.index t (1 : Fin 4) * 40 + (y 1).val, hf⟩
    ⟨(y 2).val, hy2⟩ ⟨(y 3).val, hy3⟩
    (fun k => enc_block m c t ⟨(y 1).val, hy1⟩ k ⟨win0_8.index t (0 : Fin 4), l0⟩ ⟨win0_8.index t (1 : Fin 4) * 40 + (y 1).val, hf⟩ rfl rfl)
    (fun k => dec_block m c t ⟨(y 2).val, hy2⟩ k ⟨win0_8.index t (0 : Fin 4), l0⟩ rfl)).trans ?_
  rw [wenc_block m c t, benc_block m c t, wdec_block m c t, bdec_block m c t, wout_block m c t, bout_block m c t]
  refine congrArg (joint (V m c main_arg0) (V m c main_arg1) (V m c main_arg2) (V m c main_arg3) (V m c main_arg4) (V m c main_arg5) (V m c main_arg6) (V m c main_arg7)) (funext fun a => Fin.ext ?_)
  match a with
  | ⟨0, _⟩ => show win0_8.index t (0 : Fin 4) = win0_8.index t (0 : Fin 4) * 1 + 1 * (y 0).val; omega
  | ⟨1, _⟩ => show win0_8.index t (1 : Fin 4) * 40 + (y 1).val = win0_8.index t (1 : Fin 4) * 40 + 1 * (y 1).val; omega
  | ⟨2, _⟩ => show (y 2).val = win0_8.index t (2 : Fin 4) * 50 + 1 * (y 2).val; rw [e2]; omega
  | ⟨3, _⟩ => show (y 3).val = win0_8.index t (3 : Fin 4) * 500 + 1 * (y 3).val; rw [e3]; omega

/-- WHAT POINT `t` WRITES BACK is block `t` of the specification of the argument arrays. -/
theorem flushed_eq (c : Dev nD) (t : Fin cfg0.N) :
    (dats m 0 c).flushed 8 t = ((cfg0.win 8).blk t).view.read (Elt Ideal) (joint (V m c main_arg0) (V m c main_arg1) (V m c main_arg2) (V m c main_arg3) (V m c main_arg4) (V m c main_arg5) (V m c main_arg6) (V m c main_arg7)) := by
  rw [Cert.KernelIdeal.Value.flushed8]
  funext y
  rw [View.read_apply]
  exact written_apply m c t y

/-! ## The blocks tile the array -/

/-- An index of the array is in point `t`'s block iff each coordinate is in the block's range on its axis. -/
theorem mem_blk (t : Fin cfg0.N) (i : S8x200x50x500.Idx) :
    i ∈ ((cfg0.win 8).blk t).view.set ↔ ∀ a : Fin 4, win0_8.index t a * S1x40x50x500.size a ≤ (i a).val
      ∧ (i a).val < win0_8.index t a * S1x40x50x500.size a + S1x40x50x500.size a := by
  show i ∈ ((View.whole main_v0).slice (win0_8.rect t)).set ↔ _
  rw [View.set_slice_whole, Rect.mem_set_unit]
  exact Iff.rfl

/-- Every index (n, f, u, v) of the result is in the block of the point with block index (n, f / 40). -/
theorem cover (i : S8x200x50x500.Idx) : ∃ t : Fin cfg0.N, (cfg0.win 8).flush t = true ∧ i ∈ ((cfg0.win 8).blk t).view.set := by
  have hi0 : (i 0).val < 8 := (i 0).isLt
  have hi1 : (i 1).val < 200 := (i 1).isLt
  have hi2 : (i 2).val < 50 := (i 2).isLt
  have hi3 : (i 3).val < 500 := (i 3).isLt
  obtain ⟨t, ht⟩ := tile_onto ⟨(i 0).val, hi0⟩ ⟨(i 1).val / 40, by omega⟩
  have q0 : win0_8.index t (0 : Fin 4) = (i 0).val := congrFun ht 0
  have q1 : win0_8.index t (1 : Fin 4) = (i 1).val / 40 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 40 ≤ (i 1).val ∧ (i 1).val < win0_8.index t (1 : Fin 4) * 40 + 40; omega
  | ⟨2, _⟩ => show win0_8.index t (2 : Fin 4) * 50 ≤ (i 2).val ∧ (i 2).val < win0_8.index t (2 : Fin 4) * 50 + 50; omega
  | ⟨3, _⟩ => show win0_8.index t (3 : Fin 4) * 500 ≤ (i 3).val ∧ (i 3).val < win0_8.index t (3 : Fin 4) * 500 + 500; omega

/-! ## The array after the run, and the run -/

/-- THE RESULT ARRAY after the run is the specification of the argument arrays as launched. -/
theorem final (c : Dev nD) : (dats m 0 c).arrAt 8 cfg0.N = joint (V m c main_arg0) (V m c main_arg1) (V m c main_arg2) (V m c main_arg3) (V m c main_arg4) (V m c main_arg5) (V m c main_arg6) (V m c main_arg7) :=
  (dats m 0 c).arrAt_eq_of_cover 8 (joint (V m c main_arg0) (V m c main_arg1) (V m c main_arg2) (V m c main_arg3) (V m c main_arg4) (V m c main_arg5) (V m c main_arg6) (V m c main_arg7)) (fun t _ => flushed_eq m c t) cover

/-- The kernel's run, read: every weakly fair execution terminates with the result array at the joint network's
    logits of the argument arrays, and the argument arrays unchanged. -/
theorem run : θ_run defs (onTc (τ := τ) (main (F := Ideal))) ⟨m, fun _ => 0, ρ⟩ fun r => ∀ c : Dev nD,
      r.2.mem ((c : Thread nD τ).loc main_v0) = joint (V m c main_arg0) (V m c main_arg1) (V m c main_arg2) (V m c main_arg3) (V m c main_arg4) (V m c main_arg5) (V m c main_arg6) (V m c main_arg7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Joiner.Blocks

end
-- ==== Proof.lean ====
/-
  The proof of `Cert.Claim`: a joint network's logits, computed by one fused kernel, against jnp.

  Both programs compute, for a batch entry n, an encoder frame t, a decoder step u and a vocabulary entry v,

      out[n,t,u,v] = ( ∑_j tanh( (∑_c enc[n,t,c]·Wenc[j,c] + benc[j]) + (∑_c dec[n,u,c]·Wdec[j,c] + bdec[j]) ) · Wout[v,j] ) + bout[v]

  (`Cert.Joiner.joint`, Proof/JoinerSpec.lean). The kernel does it block by block over an 8 × 5 grid — at each point 40
  encoder frames of one batch entry against all 50 decoder steps, the three products on the matrix unit into
  zero accumulators with operands rounded to bf16 on the way in — and the reference by three einsums over the whole
  arrays. On the extended reals a change of float format is the identity, a product into a zero accumulator is the
  bare sum, and the two tanh's are one function, so the two sides are the same sums in the same order: no algebraic
  law beyond rewriting indices is used, and the precondition (finite inputs) is never opened.

  The kernel's side: the body's value at an index of its block (Proof/BodyLayout.lean, Proof/BodyJoint.lean), then
  from the blocks each grid point writes back to the whole array (Proof/BlocksJoint.lean), over the generated frame
  run. The reference's side: its generated run, read one operation at a time (Proof/RefJoint.lean). The three
  frames are the generated ones; the idealization rewrote nothing, so `preserves` is trivial.
-/
import proofs.«170664_j14035953123456_1_alg».proof.Defs
import proofs.«170664_j14035953123456_1_alg».proof.Proof.Gen.Kernel
import proofs.«170664_j14035953123456_1_alg».proof.Proof.Gen.Kernel.Skeleton
import proofs.«170664_j14035953123456_1_alg».proof.Proof.Gen.Kernel.Launch
import proofs.«170664_j14035953123456_1_alg».proof.Proof.Gen.Kernel.Points
import proofs.«170664_j14035953123456_1_alg».proof.Proof.Gen.Kernel.Frame
import proofs.«170664_j14035953123456_1_alg».proof.Proof.Gen.KernelIdeal
import proofs.«170664_j14035953123456_1_alg».proof.Proof.Gen.KernelIdeal.Skeleton
import proofs.«170664_j14035953123456_1_alg».proof.Proof.Gen.KernelIdeal.Launch
import proofs.«170664_j14035953123456_1_alg».proof.Proof.Gen.KernelIdeal.Points
import proofs.«170664_j14035953123456_1_alg».proof.Proof.Gen.KernelIdeal.Frame
import proofs.«170664_j14035953123456_1_alg».proof.Proof.Gen.ReferenceIdeal
import proofs.«170664_j14035953123456_1_alg».proof.Proof.Gen.Pre_finite_inputs
import proofs.«170664_j14035953123456_1_alg».proof.Proof.Gen.KernelIdeal.Value
import proofs.«170664_j14035953123456_1_alg».proof.Proof.Gen.ReferenceIdeal.Run
import proofs.«170664_j14035953123456_1_alg».proof.Proof.Gen.ReferenceIdeal.Read
import proofs.«170664_j14035953123456_1_alg».proof.Proof.RefJoint
import proofs.«170664_j14035953123456_1_alg».proof.Proof.BlocksJoint
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments, the kernel's result array ends at the joint network's logits of
    them (the blocks' run) and the reference's at its composed term of them, which is the same function read one
    operation at a time. -/
theorem algebraic : Cert.algebraic_KernelIdeal_ReferenceIdeal := by
  intro m ρ m' ρ' _ hagree
  refine ⟨fun c => Cert.Joiner.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.Joiner.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Joiner.Ref.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
